-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x40 .f32 := Host.absf main_arg4
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  let main_v14 : FVec F S40 .f32 := Host.absf main_arg5
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x40 : Shape := ⟨2, ![1, 40]⟩
abbrev S100000x40 : Shape := ⟨2, ![100000, 40]⟩
abbrev S2000x128 : Shape := ⟨2, ![2000, 128]⟩
abbrev S2000x40 : Shape := ⟨2, ![2000, 40]⟩

abbrev nBuf : Space → Nat
  | .hbm => 70
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S1600000, .f32⟩
  | .hbm, ⟨24, _⟩ => ⟨S1600000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x40, .f32⟩
  | .hbm, ⟨69, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x40, .f32⟩
  | .local _ .vmem, ⟨3, _⟩ => ⟨S1x40, .f32⟩
  | .local _ .vmem, ⟨4, _⟩ => ⟨S2000x40, .f32⟩
  | .local _ .vmem, ⟨5, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x40.size a ≤ S128x40.size a
  hwx0_1 : ∀ i : grid0.Coords, EltTy.bits .f32 = 32 ∨ (Rect.block (s := S128x40) S128x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x40.size a ≤ S100000x40.size a
  hwx0_3 : ∀ i : grid0.Coords, EltTy.bits .f32 = 32 ∨ (Rect.block (s := S100000x40) S2000x40.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v49) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x40 : Shape := ⟨2, ![100000, 40]⟩
abbrev S1x40 : Shape := ⟨2, ![1, 40]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S1600000, .f32⟩
  | .hbm, ⟨24, _⟩ => ⟨S1600000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x40, .f32⟩
  | .hbm, ⟨69, _⟩ => ⟨S1x40, .f32⟩
  | .hbm, ⟨70, _⟩ => ⟨S100000x40, .f32⟩
  | .hbm, ⟨71, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.FcSpec.lean ====
/-
  The function both programs compute in their last stage, stated once and over no program.

  Given a feature array `h` of 100000 rows by 128 columns, a weight array `w` of 128 by 40 and one bias per output
  column `β`, the fully connected layer's entry at row `r`, column `q` is

      fcAt h w β r q = (∑ k, h[r, k] · w[k, q]) + β q

  on the extended reals. Only the commutative-monoid structure of `+` is used anywhere below (a zero accumulator is
  dropped by `0 + x = x`, which holds at the infinities too), so no finiteness of the inputs is ever needed.
-/
import Idealize.ShloMosaic.PureOps.Ideal
import Idealize.ShloMosaic.Lib.ValueIdx

noncomputable section

namespace Cert.Fc

open Idealize.ShloMosaic Idealize.ShloMosaic.ValueIdx

/-- One entry of the layer: the row of `h` against the column of `w`, plus that column's bias. -/
def fcAt (h : (⟨2, ![100000, 128]⟩ : Shape).Idx → EReal) (w : (⟨2, ![128, 40]⟩ : Shape).Idx → EReal) (β : Fin 40 → EReal)
    (r : Fin 100000) (q : Fin 40) : EReal :=
  (∑ k : Fin 128, h (ix2 r k) * w (ix2 k q)) + β q

/-- The whole output array, index by index. -/
def fc (h : (⟨2, ![100000, 128]⟩ : Shape).Idx → EReal) (w : (⟨2, ![128, 40]⟩ : Shape).Idx → EReal) (β : Fin 40 → EReal) :
    (⟨2, ![100000, 40]⟩ : Shape).Idx → EReal :=
  fun i => fcAt h w β (i 0) (i 1)

/-- Read at explicit coordinates. -/
theorem fc_ix2 (h : (⟨2, ![100000, 128]⟩ : Shape).Idx → EReal) (w : (⟨2, ![128, 40]⟩ : Shape).Idx → EReal) (β : Fin 40 → EReal)
    (r : Fin 100000) (q : Fin 40) : fc h w β (ix2 r q) = fcAt h w β r q := rfl

end Cert.Fc

end
-- ==== Proof.RefIsFc.lean ====
/-
  The reference's result is the fully connected layer of its own propagated features.

  The reference ends with a `dot_general` of the propagated feature array (the result of the two rounds of weighted
  neighbour sums, carried here as ONE opaque array `hops` — nothing about it is used) against the weights, plus the bias
  broadcast over the rows: `[40] → [1, 40] → [100000, 40]`. Read at row `r`, column `q`: the `dot_general` is the sum
  over the 128 contracted positions of `hops[r, k] · W[k, q]`, and the two broadcasts read the bias at `q`.
-/
import proofs.«149612_j36438502539416_1_alg».proof.Proof.Gen.ReferenceIdeal.Read
import proofs.«149612_j36438502539416_1_alg».proof.Proof.FcSpec

noncomputable section

namespace Cert.ReferenceIdeal.RefValue

open Cert.ReferenceIdeal Cert.ReferenceIdeal.Read Idealize.ShloMosaic Idealize.ShloMosaic.ValueIdx Cert.Fc

/-- The propagated features: the reference's value just before its last stage, as a function of the four arguments it
    depends on. Kept folded everywhere. -/
abbrev hops (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) : (⟨S100000x128, .f32⟩ : BufTy).Contents (Elt Ideal) :=
  val_main_v49 (F := Ideal) x0 x1 x2 x3

/-- The left operand's index at output `(r, q)` and contracted position `k` is `(r, k)`. -/
theorem lidx_eq (r : Fin 100000) (q : Fin 40) (k : Fin 128) : lidx_main_v50 (ix2 r q) k = ix2 r k :=
  funext fun a => Fin.ext (by match a with | ⟨0, _⟩ => rfl | ⟨1, _⟩ => rfl)

/-- The right operand's is `(k, q)`. -/
theorem ridx_eq (r : Fin 100000) (q : Fin 40) (k : Fin 128) : ridx_main_v50 (ix2 r q) k = ix2 k q :=
  funext fun a => Fin.ext (by match a with | ⟨0, _⟩ => rfl | ⟨1, _⟩ => rfl)

/-- The bias, broadcast twice, is read at the column. -/
theorem bidx_eq (r : Fin 100000) (q : Fin 40) : idx_main_v51 (idx_main_v52 (ix2 r q)) = ix1 q :=
  funext fun a => Fin.ext (by match a with | ⟨0, _⟩ => rfl)

/-- The reference's last stage, as a function of its arguments, IS the layer of the propagated features. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x40, .f32⟩ : BufTy).Contents (Elt Ideal))
    (x5 : (⟨S40, .f32⟩ : BufTy).Contents (Elt Ideal)) :
    val_main_v53 (F := Ideal) x0 x1 x2 x3 x4 x5 = fc (hops x0 x1 x2 x3) x4 (fun q => x5 (ix1 q)) := by
  funext i
  obtain ⟨r, q, rfl⟩ : ∃ (r : Fin 100000) (q : Fin 40), i = ix2 r q := ⟨i 0, i 1, eq_ix2 i⟩
  rw [val_main_v53_apply, val_main_v50_apply, val_main_v52_apply, val_main_v51_apply, bidx_eq, fc_ix2]
  simp only [lidx_eq, ridx_eq]
  rfl

end Cert.ReferenceIdeal.RefValue

end
-- ==== Proof.FcEntry.lean ====
/-
  What the kernel's three input arrays hold when the region is entered.

  The program computes its first operand on the host before the call: the features propagated twice along the edges
  (weighted sums over each node's incoming edges, the weights normalised by the square roots of the endpoint degrees).
  Those host operations are, operation by operation, the reference's own first sixty-two; so the array the region finds is the
  reference's propagated-feature function of the same four arguments. That function is never opened: the two programs'
  dimension records for the gathers and scatter-sums are separate constants with equal fields, and the equation below is
  closed by comparing the two compositions as terms.

  The second operand is the weight argument itself, and the third is the bias argument recast from 40 entries to one row
  of 40, which reads at `(0, q)` the bias at `q`.
-/
import proofs.«149612_j36438502539416_1_alg».proof.Proof.Gen.KernelIdeal.Frame
import proofs.«149612_j36438502539416_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 16384 in
set_option maxHeartbeats 8000000 in
/-- The first operand's array at region entry is the reference's propagated-feature function of the four graph arguments. -/
theorem V_hops (c : Dev nD) :
    (V m c main_v49 : S100000x128.Idx → EReal)
      = Cert.ReferenceIdeal.Read.val_main_v49 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp
  rfl

set_option maxRecDepth 16384 in
set_option maxHeartbeats 8000000 in
/-- The third operand's array at region entry is the bias argument recast to one row. -/
theorem V_bias (c : Dev nD) :
    (V m c main_v50 : S1x40.Idx → EReal) = shapeCast S1x40 (m ((c : Thread nD τ).loc main_arg5)) shapeCasts_S40_S1x40 := by
  dsimp only [Gen.V, Gen.hostOps0]
  after_results_simp
  rfl

/-- Read at `(0, q)` it is the bias at `q`. -/
theorem V_bias_at (c : Dev nD) (q : Fin 40) :
    (V m c main_v50 : S1x40.Idx → EReal) (ix2 (0 : Fin 1) q) = (m ((c : Thread nD τ).loc main_arg5) : S40.Idx → EReal) (ix1 q) := by
  rw [V_bias]
  exact shapeCast_a_1a_apply _ shapeCasts_S40_S1x40 0 q

end Cert.KernelIdeal.Entry

end
-- ==== Proof.FcPayload.lean ====
/-
  What the kernel body stores, read at one entry of its block.

  At a grid point the body loads a 2000-row block `x0` of the propagated features, the whole weight array `x1` and the
  bias as a single row `x2`; it narrows `x0` and `x1` to bf16 (the identity on the extended reals), multiplies them into a
  zero accumulator, and adds the bias row broadcast down the 2000 rows. So the stored value at row `p` of the block and
  column `q` is

      (∑ k, x0[p, k] · x1[k, q]) + x2[0, q].

  The product into a zero accumulator is `0 + ∑ …`, and `0 + x = x` on every extended real: nothing here asks for
  finite inputs. The contraction's index set has one axis of extent 128; the sum is re-indexed over `Fin 128` through
  that bijection.
-/
import proofs.«149612_j36438502539416_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices -/

/-- The left operand is read in the output's row … -/
theorem lhs_row (j : S2000x40.Idx) (κ : dot_S2000x128_S128x40_S2000x40_1_0_0_1_n_n.contr.Idx) :
    (dot_S2000x128_S128x40_S2000x40_1_0_0_1_n_n.lhsIdx j κ 0).val = (j 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- … at the contracted position; -/
theorem lhs_col (j : S2000x40.Idx) (κ : dot_S2000x128_S128x40_S2000x40_1_0_0_1_n_n.contr.Idx) :
    (dot_S2000x128_S128x40_S2000x40_1_0_0_1_n_n.lhsIdx j κ 1).val = (κ ⟨0, by decide⟩).val :=
  dot_S2000x128_S128x40_S2000x40_1_0_0_1_n_n.lhsIdx_val_of_single rfl j κ
/-- the right operand at the contracted position … -/
theorem rhs_row (j : S2000x40.Idx) (κ : dot_S2000x128_S128x40_S2000x40_1_0_0_1_n_n.contr.Idx) :
    (dot_S2000x128_S128x40_S2000x40_1_0_0_1_n_n.rhsIdx j κ 0).val = (κ ⟨0, by decide⟩).val :=
  dot_S2000x128_S128x40_S2000x40_1_0_0_1_n_n.rhsIdx_val_of_single rfl j κ
/-- … in the output's column. -/
theorem rhs_col (j : S2000x40.Idx) (κ : dot_S2000x128_S128x40_S2000x40_1_0_0_1_n_n.contr.Idx) :
    (dot_S2000x128_S128x40_S2000x40_1_0_0_1_n_n.rhsIdx j κ 1).val = (j 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-! ## The product into a zero accumulator is the row-by-column sum -/

theorem matmul_at (l : FVec Ideal S2000x128 .bf16) (r : FVec Ideal S128x40 .bf16) (p : Fin 2000) (q : Fin 40) :
    matmul dot_S2000x128_S128x40_S2000x40_1_0_0_1_n_n none l r (constant (F := Ideal) S2000x40 .f32 0x00000000#32) (ix2 p q)
      = ∑ k : Fin 128, l (ix2 p k) * r (ix2 k q) := by
  refine (Ideal.matmul_constant_zero_apply dot_S2000x128_S128x40_S2000x40_1_0_0_1_n_n none l r (ix2 p q)).trans ?_
  rw [← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The stored value at an entry -/

/-- The body's stored value at row `p`, column `q` of its block, from the three loaded blocks. -/
theorem pay_at (x0 : Vec Ideal S2000x128 .f32) (x1 : Vec Ideal S128x40 .f32) (x2 : Vec Ideal S1x40 .f32) (p : Fin 2000) (q : Fin 40) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) ?_ ?_
  · refine (matmul_at _ _ p q).trans ?_
    refine Finset.sum_congr rfl fun k _ => ?_
    refine congrArg₂ (· * ·) ?_ rfl
    exact congrFun (shapeCast_self x0 shapeCasts_S2000x128_S2000x128) (ix2 p k)
  · refine (broadcastTo_1b_ab_apply _ broadcasts_S1x40_S2000x40 p q).trans ?_
    exact congrFun (shapeCast_self x2 shapeCasts_S1x40_S1x40) (ix2 (0 : Fin 1) q)

end Cert.KernelIdeal.Body

end
-- ==== Proof.FcBlocks.lean ====
/-
  From the fifty row blocks to the whole output array.

  The output has 100000 rows; grid point `t` (of fifty) writes rows `2000·t … 2000·t + 1999`, all forty columns. At
  that point the first operand's block is the same 2000 rows of the propagated features, and the weight and bias blocks
  are those whole arrays (their block index is zero at every point). So the entry the body stores at row `p`, column
  `q` of its block is the layer's entry at row `2000·t + p`, column `q`: each block written back is the restriction of
  ONE function of the arrays the region finds — the layer `fc` of them. The blocks cover every row (row `r` lies in block
  `r / 2000`), hence the output array ends as that function.
-/
import proofs.«149612_j36438502539416_1_alg».proof.Proof.Gen.KernelIdeal.Value
import proofs.«149612_j36438502539416_1_alg».proof.Proof.FcSpec
import proofs.«149612_j36438502539416_1_alg».proof.Proof.FcPayload

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Fc Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One stored entry is one entry of the layer -/

/-- If the three loaded blocks agree with arrays `h`, `w` and a bias `β` along the row and column that output index `i`
    names, the body's stored value at block entry `y` is the layer's entry at `i`. -/
theorem stored_entry (h : S100000x128.Idx → EReal) (w : S128x40.Idx → EReal) (β : Fin 40 → EReal)
    (x0 : Vec Ideal S2000x128 .f32) (x1 : Vec Ideal S128x40 .f32) (x2 : Vec Ideal S1x40 .f32)
    (y : S2000x40.Idx) (i : S100000x40.Idx)
    (e0 : ∀ k : Fin 128, x0 (ix2 (y 0) k) = h (ix2 (i 0) k))
    (e1 : ∀ k : Fin 128, x1 (ix2 k (y 1)) = w (ix2 k (i 1)))
    (e2 : x2 (ix2 (0 : Fin 1) (y 1)) = β (i 1)) :
    k0_pay1 (F := Ideal) x0 x1 x2 y = fc h w β i := by
  obtain ⟨p, q, rfl⟩ : ∃ (p : Fin 2000) (q : Fin 40), y = ix2 p q := ⟨y 0, y 1, eq_ix2 y⟩
  refine (pay_at x0 x1 x2 p q).trans ?_
  show _ = fcAt h w β (i 0) (i 1)
  unfold fcAt
  exact congrArg₂ (· + ·) (Finset.sum_congr rfl fun k _ => congrArg₂ (· * ·) (e0 k) (e1 k)) e2

/-! ## The index maps over the grid -/

/-- Decided over the fifty points: the first operand and the output move one block of rows per point; the weights and the
    bias stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What each point writes back -/

/-- The output array's final contents, from the arrays the region finds: the layer of the first operand's array, the
    weights, and the bias row. -/
abbrev target (c : Dev nD) : S100000x40.Idx → EReal :=
  fc (V m c main_v49) (V m c main_arg4) (fun q => (V m c main_v50 : S1x40.Idx → EReal) (ix2 (0 : Fin 1) q))

/-- THE PER-POINT EQUATION over arbitrary arrays `A0`, `A1`, `A2` in place of the three the region finds: the body's result
    on their blocks at point `t`, read through the output's block, is block `t` of the layer of `A0`, `A1` and `A2`'s row.
    (Stated over variables so that the host-computed arrays enter only as arguments.) -/
theorem block_eq (A0 : S100000x128.Idx → EReal) (A1 : S128x40.Idx → EReal) (A2 : S1x40.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (fc A0 A1 (fun q => A2 (ix2 (0 : Fin 1) q))) := by
  unfold out0_3
  rw [View.canon_unit_zero hz]
  simp only [View.ld_unit_zero (S := S2000x128) hz, View.ld_unit_zero (S := S128x40) hz, View.ld_unit_zero (S := S1x40) hz]
  obtain ⟨a0, a1, b0, b1, c0, c1, d0, d1⟩ := idx_facts t
  funext j
  have hj0 : (j 0).val < 2000 := (j 0).isLt
  have hj1 : (j 1).val < 40 := (j 1).isLt
  refine stored_entry A0 A1 (fun q => A2 (ix2 (0 : Fin 1) q))
    (((cfg0.win 0).blk t).view.read (Elt Ideal) A0) (((cfg0.win 1).blk t).view.read (Elt Ideal) A1)
    (((cfg0.win 2).blk t).view.read (Elt Ideal) A2) j (((cfg0.win 3).blk t).view.emb j) ?_ ?_ ?_
  · intro k
    have hk : k.val < 128 := k.isLt
    have he : ((cfg0.win 0).blk t).view.emb (ix2 (j 0) k) = ix2 ((((cfg0.win 3).blk t).view.emb j) 0) k := by
      funext a; apply Fin.ext
      match a with
      | ⟨0, _⟩ => show win0_0.index t (0 : Fin 2) * 2000 + 1 * (j 0).val = win0_3.index t (0 : Fin 2) * 2000 + 1 * (j 0).val; omega
      | ⟨1, _⟩ => show win0_0.index t (1 : Fin 2) * 128 + 1 * k.val = k.val; omega
    show A0 (((cfg0.win 0).blk t).view.emb (ix2 (j 0) k)) = A0 (ix2 ((((cfg0.win 3).blk t).view.emb j) 0) k)
    exact congrArg A0 he
  · intro k
    have hk : k.val < 128 := k.isLt
    have he : ((cfg0.win 1).blk t).view.emb (ix2 k (j 1)) = ix2 k ((((cfg0.win 3).blk t).view.emb j) 1) := by
      funext a; apply Fin.ext
      match a with
      | ⟨0, _⟩ => show win0_1.index t (0 : Fin 2) * 128 + 1 * k.val = k.val; omega
      | ⟨1, _⟩ => show win0_1.index t (1 : Fin 2) * 40 + 1 * (j 1).val = win0_3.index t (1 : Fin 2) * 40 + 1 * (j 1).val; omega
    show A1 (((cfg0.win 1).blk t).view.emb (ix2 k (j 1))) = A1 (ix2 k ((((cfg0.win 3).blk t).view.emb j) 1))
    exact congrArg A1 he
  · have he : ((cfg0.win 2).blk t).view.emb (ix2 (0 : Fin 1) (j 1)) = ix2 (0 : Fin 1) ((((cfg0.win 3).blk t).view.emb j) 1) := by
      funext a; apply Fin.ext
      match a with
      | ⟨0, _⟩ => show win0_2.index t (0 : Fin 2) * 1 + 1 * 0 = 0; omega
      | ⟨1, _⟩ => show win0_2.index t (1 : Fin 2) * 40 + 1 * (j 1).val = win0_3.index t (1 : Fin 2) * 40 + 1 * (j 1).val; omega
    show A2 (((cfg0.win 2).blk t).view.emb (ix2 (0 : Fin 1) (j 1))) = A2 (ix2 (0 : Fin 1) ((((cfg0.win 3).blk t).view.emb j) 1))
    exact congrArg A2 he

/-- WHAT POINT `t` WRITES BACK is block `t` of `target`: the per-point equation at the arrays the region finds. -/
theorem flushed_eq (c : Dev nD) (t : Fin cfg0.N) :
    (dats m 0 c).flushed 3 t = ((cfg0.win 3).blk t).view.read (Elt Ideal) (target m c) :=
  (Value.flushed3 m c t).trans (block_eq (V m c main_v49) (V m c main_arg4) (V m c main_v50) t)

/-! ## The blocks cover the array -/

/-- An index of the array is in point `t`'s block iff each coordinate is in the block's range on its axis. -/
theorem mem_blk (t : Fin cfg0.N) (i : S100000x40.Idx) :
    i ∈ ((cfg0.win 3).blk t).view.set ↔ ∀ a : Fin 2, win0_3.index t a * S2000x40.size a ≤ (i a).val ∧ (i a).val < win0_3.index t a * S2000x40.size a + S2000x40.size a := by
  show i ∈ ((View.whole main_v51).slice (win0_3.rect t)).set ↔ _
  rw [View.set_slice_whole, Rect.mem_set_unit]
  exact Iff.rfl

/-- Row `r` lies in the block of point `r / 2000`. -/
theorem cover (i : S100000x40.Idx) : ∃ t : Fin cfg0.N, (cfg0.win 3).flush t = true ∧ i ∈ ((cfg0.win 3).blk t).view.set := by
  have hi0 : (i 0).val < 100000 := (i 0).isLt
  have hi1 : (i 1).val < 40 := (i 1).isLt
  have hN : cfg0.N = 50 := N_0
  have hlt : (i 0).val / 2000 < cfg0.N := by rw [hN]; omega
  obtain ⟨a0, a1, b0, b1, c0, c1, d0, d1⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [d0]
    show (i 0).val / 2000 * 2000 ≤ (i 0).val ∧ (i 0).val < (i 0).val / 2000 * 2000 + 2000
    omega
  | ⟨1, _⟩ =>
    show win0_3.index ⟨(i 0).val / 2000, hlt⟩ (1 : Fin 2) * 40 ≤ (i 1).val ∧ (i 1).val < win0_3.index ⟨(i 0).val / 2000, hlt⟩ (1 : Fin 2) * 40 + 40
    rw [d1]
    omega

/-! ## The array after the run, and the run -/

/-- THE OUTPUT ARRAY after the run is the layer of the arrays the region finds. -/
theorem final (c : Dev nD) : (dats m 0 c).arrAt 3 cfg0.N = target m c :=
  (dats m 0 c).arrAt_eq_of_cover 3 (target m c) (fun t _ => flushed_eq m c t) cover

/-- The kernel program's run with the output array at that function, the arguments unchanged. -/
theorem run : θ_run defs (onTc (τ := τ) (main (F := Ideal))) ⟨m, fun _ => 0, ρ⟩ fun r => ∀ c : Dev nD,
      r.2.mem ((c : Thread nD τ).loc main_v51) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  A graph convolution with weighted edges: node features are propagated twice along the edges (each hop sums, into every
  node, its incoming neighbours' features scaled by the edge weight over the square roots of the endpoints' weighted
  degrees), then a fully connected layer `h ↦ h · W + b` maps the 128 propagated features of each of the 100000 nodes to 40
  outputs.

  Both programs do the two hops on the host with the same operations in the same order; they differ only in the layer.
  The reference applies one `dot_general` and adds the bias broadcast over the rows. The kernel program recasts the bias
  to one row and runs a grid of fifty points, each taking 2000 rows of the propagated features, narrowing them and the
  weights to bf16, multiplying into a zero accumulator and adding the bias row.

  On the extended reals narrowing is the identity and the product into a zero accumulator is `0 + ∑ₖ h[r, k] · W[k, q]`,
  which is the sum itself at every value, infinite ones included. So both results are, entry by entry,

      (∑ₖ hops[r, k] · W[k, q]) + b[q]

  where `hops` is the SAME function of the four graph arguments on both sides. It is carried as one opaque function and
  never opened, and the finiteness precondition is never used.

  The pieces: `FcSpec` states the layer; `RefIsFc` reads the reference's last four operations at an index; `FcPayload`
  reads the kernel body's stored value at an index; `FcEntry` says what the three input arrays hold when the region is
  entered; `FcBlocks` goes from the fifty written blocks to the whole output array. Here they are joined. The three frame
  conjuncts are the generated frames and the reference's generated run; the idealisation rewrote nothing, so `preserves`
  is `True`.
-/
import proofs.«149612_j36438502539416_1_alg».proof.Defs
import proofs.«149612_j36438502539416_1_alg».proof.Proof.Gen.Kernel
import proofs.«149612_j36438502539416_1_alg».proof.Proof.Gen.Kernel.Frame
import proofs.«149612_j36438502539416_1_alg».proof.Proof.Gen.KernelIdeal
import proofs.«149612_j36438502539416_1_alg».proof.Proof.Gen.KernelIdeal.Frame
import proofs.«149612_j36438502539416_1_alg».proof.Proof.Gen.KernelIdeal.Value
import proofs.«149612_j36438502539416_1_alg».proof.Proof.Gen.ReferenceIdeal
import proofs.«149612_j36438502539416_1_alg».proof.Proof.Gen.ReferenceIdeal.Run
import proofs.«149612_j36438502539416_1_alg».proof.Proof.Gen.ReferenceIdeal.Read
import proofs.«149612_j36438502539416_1_alg».proof.Proof.Gen.Pre_finite_inputs
import proofs.«149612_j36438502539416_1_alg».proof.Proof.FcSpec
import proofs.«149612_j36438502539416_1_alg».proof.Proof.RefIsFc
import proofs.«149612_j36438502539416_1_alg».proof.Proof.FcEntry
import proofs.«149612_j36438502539416_1_alg».proof.Proof.FcBlocks
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames and the idealisation -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation is the program's own text read on the extended reals. -/
theorem preserves : Cert.preserves_Kernel_KernelIdeal := trivial

/-! ## The kernel's output array as the layer of the ARGUMENTS -/

/-- The arrays the region finds are: the propagated features of the four graph arguments, the weight argument, and the
    bias argument as one row. So the kernel's final output array is the layer of those. -/
theorem target_eq (m : (ℓ : Loc Cert.KernelIdeal.nD Cert.KernelIdeal.τ Cert.KernelIdeal.sig) → Buf (Elt Ideal) ℓ) (c : Dev Cert.KernelIdeal.nD) :
    Cert.KernelIdeal.Blocks.target m c
      = Cert.Fc.fc (Cert.ReferenceIdeal.RefValue.hops (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4))
          (fun q => (m ((c.tc : Thread Cert.KernelIdeal.nD Cert.KernelIdeal.τ).loc Cert.KernelIdeal.main_arg5) : Cert.KernelIdeal.S40.Idx → EReal) (ix1 q)) := by
  show Cert.Fc.fc (Cert.KernelIdeal.Gen.V m c Cert.KernelIdeal.main_v49) (Cert.KernelIdeal.Gen.V m c Cert.KernelIdeal.main_arg4)
    (fun q => (Cert.KernelIdeal.Gen.V m c Cert.KernelIdeal.main_v50 : Cert.KernelIdeal.S1x40.Idx → EReal) (ix2 (0 : Fin 1) q)) = _
  rw [Cert.KernelIdeal.Entry.V_hops, Cert.KernelIdeal.Gen.V_main_arg4]
  exact congrArg (Cert.Fc.fc _ _) (funext fun q => Cert.KernelIdeal.Entry.V_bias_at m c q)

/-! ## Equal results -/

/-- From memories agreeing on the arguments, the kernel program's output array and the reference's result are the same
    layer of the same propagated features. -/
theorem algebraic : Cert.algebraic_KernelIdeal_ReferenceIdeal := by
  intro m ρ m' ρ' _ hagree
  refine ⟨fun c => Cert.KernelIdeal.Blocks.target m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v53_eq, Cert.ReferenceIdeal.RefValue.result_eq, h0, h1, h2, h3, h4, h5]
  exact (target_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
